-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S30000000 : Shape := ⟨1, ![30000000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S30000000 : S_.BroadcastsInDim S30000000 (![] : Fin 0 → Fin S30000000.rank)
  reducesTo_S30000000_S_d0 : S30000000.ReducesTo [0] S_

variable [Facts]

def fn {F : FTy → Type} [FloatOps F] (main_arg0 : FVec F S256x256 .f32) (main_arg1 : IVec S30000000 32) (main_arg2 : IVec S30000000 32) (main_arg3 : FVec F S30000000 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S30000000 .f32 := Host.absf main_arg3
  let main_cst_0 : FVec F S_ .f32 := constant S_ .f32 0x7F800000#32
  let main_v5 : FVec F S30000000 .f32 := broadcastInDim S30000000 ![] bcast_S_S30000000 main_cst_0
  let main_v6 : IVec S30000000 1 := cmpf .olt main_v4 main_v5
  let main_c_1 : IVec S_ 1 := constantI S_ 1 1#1
  let main_v7 : IVec S_ 1 := (fun x v => Host.reduce IntOp.andi x v reducesTo_S30000000_S_d0 h_S_) main_v6 main_c_1
  let main_v8 : IVec S_ 1 := andi main_v3 main_v7
  main_v8
-- ==== Kernel.lean ====
abbrev S256x256 : Shape := ⟨2, ![256, 256]⟩
abbrev S30000000 : Shape := ⟨1, ![30000000]⟩
abbrev S65536 : Shape := ⟨1, ![65536]⟩
abbrev S_ : Shape := ⟨0, ![]⟩
abbrev S30000000x1 : Shape := ⟨2, ![30000000, 1]⟩
abbrev S1 : Shape := ⟨1, ![1]⟩
abbrev S1x1 : Shape := ⟨2, ![1, 1]⟩
abbrev S234375x128 : Shape := ⟨2, ![234375, 128]⟩
abbrev S8192x128 : Shape := ⟨2, ![8192, 128]⟩
abbrev S131072 : Shape := ⟨1, ![131072]⟩
abbrev S1024x128 : Shape := ⟨2, ![1024, 128]⟩

abbrev nBuf : Space → Nat
  | .hbm => 40
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S30000000, .i32⟩
  | .hbm, ⟨2, _⟩ => ⟨S30000000, .i32⟩
  | .hbm, ⟨3, _⟩ => ⟨S30000000, .f32⟩
  | .hbm, ⟨4, _⟩ => ⟨S256x256, .f32⟩
  | .hbm, ⟨5, _⟩ => ⟨S65536, .f32⟩
  | .hbm, ⟨6, _⟩ => ⟨S_, .i32⟩
  | .hbm, ⟨7, _⟩ => ⟨S30000000, .i32⟩
  | .hbm, ⟨8, _⟩ => ⟨S30000000, .i1⟩
  | .hbm, ⟨9, _⟩ => ⟨S_, .i32⟩
  | .hbm, ⟨10, _⟩ => ⟨S30000000, .i32⟩
  | .hbm, ⟨11, _⟩ => ⟨S30000000, .i32⟩
  | .hbm, ⟨12, _⟩ => ⟨S30000000, .i32⟩
  | .hbm, ⟨13, _⟩ => ⟨S30000000x1, .i32⟩
  | .hbm, ⟨14, _⟩ => ⟨S1, .i32⟩
  | .hbm, ⟨15, _⟩ => ⟨S_, .i32⟩
  | .hbm, ⟨16, _⟩ => ⟨S30000000x1, .i32⟩
  | .hbm, ⟨17, _⟩ => ⟨S30000000x1, .i1⟩
  | .hbm, ⟨18, _⟩ => ⟨S1x1, .i32⟩
  | .hbm, ⟨19, _⟩ => ⟨S30000000x1, .i32⟩
  | .hbm, ⟨20, _⟩ => ⟨S30000000x1, .i1⟩
  | .hbm, ⟨21, _⟩ => ⟨S30000000x1, .i1⟩
  | .hbm, ⟨22, _⟩ => ⟨S_, .i1⟩
  | .hbm, ⟨23, _⟩ => ⟨S30000000, .i1⟩
  | .hbm, ⟨24, _⟩ => ⟨S30000000, .f32⟩
  | .hbm, ⟨25, _⟩ => ⟨S_, .f32⟩
  | .hbm, ⟨26, _⟩ => ⟨S30000000, .f32⟩
  | .hbm, ⟨27, _⟩ => ⟨S30000000, .f32⟩
  | .hbm, ⟨28, _⟩ => ⟨S234375x128, .f32⟩
  | .hbm, ⟨29, _⟩ => ⟨S234375x128, .f32⟩
  | .hbm, ⟨30, _⟩ => ⟨S234375x128, .f32⟩
  | .hbm, ⟨31, _⟩ => ⟨S30000000, .f32⟩
  | .hbm, ⟨32, _⟩ => ⟨S_, .f32⟩
  | .hbm, ⟨33, _⟩ => ⟨S131072, .f32⟩
  | .hbm, ⟨34, _⟩ => ⟨S30000000x1, .i32⟩
  | .hbm, ⟨35, _⟩ => ⟨S131072, .f32⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S1024x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  shapeCasts_S256x256_S65536 : S256x256.ShapeCasts S65536
  bcast_S_S30000000 : S_.BroadcastsInDim S30000000 (![] : Fin 0 → Fin S30000000.rank)
  bcast_S30000000_S30000000x1_0 : S30000000.BroadcastsInDim S30000000x1 (![0] : Fin 1 → Fin S30000000x1.rank)
  bcast_S_S30000000x1 : S_.BroadcastsInDim S30000000x1 (![] : Fin 0 → Fin S30000000x1.rank)
  bcast_S1_S1x1_1 : S1.BroadcastsInDim S1x1 (![1] : Fin 1 → Fin S1x1.rank)
  bcast_S1x1_S30000000x1_0_1 : S1x1.BroadcastsInDim S30000000x1 (![0, 1] : Fin 2 → Fin S30000000x1.rank)
  reducesTo_S30000000x1_S30000000_d1 : S30000000x1.ReducesTo [1] S30000000
  h_S_ : 0 < S_.numel
  shapeCasts_S30000000_S234375x128 : S30000000.ShapeCasts S234375x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S234375x128_S30000000 : S234375x128.ShapeCasts S30000000
  bcast_S_S131072 : S_.BroadcastsInDim S131072 (![] : Fin 0 → Fin S131072.rank)
  shapeCasts_S131072_S1024x128 : S131072.ShapeCasts S1024x128
  gather_S65536_S30000000x1_S30000000_n_0_n_n_0_1_1_wf : GatherDims.WF S65536 S30000000x1 S30000000 [] [0] [] [0] [] 1 ![1]
  scatter_S131072_S30000000x1_S30000000_n_0_0_1_wf : ScatterDims.WF S131072 S30000000x1 S30000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S234375x128.size a
  hwx0_0 : ∀ i : grid0.Coords, EltTy.bits .f32 = 32 ∨ (Rect.unit (s := S234375x128) (fun a => cc0_transform_0 i a * S8192x128.size a) (fun a => (Pipeline.Clip.of (cc0_transform_0 i a) (S8192x128.size a) (S234375x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S234375x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S234375x128.size a
  hwx0_1 : ∀ i : grid0.Coords, EltTy.bits .f32 = 32 ∨ (Rect.unit (s := S234375x128) (fun a => cc0_transform_1 i a * S8192x128.size a) (fun a => (Pipeline.Clip.of (cc0_transform_1 i a) (S8192x128.size a) (S234375x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S234375x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S234375x128.size a
  hwx0_2 : ∀ i : grid0.Coords, EltTy.bits .f32 = 32 ∨ (Rect.unit (s := S234375x128) (fun a => cc0_transform_2 i a * S8192x128.size a) (fun a => (Pipeline.Clip.of (cc0_transform_2 i a) (S8192x128.size a) (S234375x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S234375x128.size a)).extent (S8192x128.size a)) fun a => (Nat.zero_add _).trans_le (Pipeline.Clip.extent_le (Pipeline.Clip.ok_of (hstart0_2 i a)))).WholeWords (EltTy.packing .f32)

variable [Facts₀]

def gather_S65536_S30000000x1_S30000000_n_0_n_n_0_1_1 : GatherDims S65536 S30000000x1 S30000000 where
  offsetDims := []
  collapsedSliceDims := [0]
  operandBatchingDims := []
  startIndicesBatchingDims := []
  startIndexMap := [0]
  indexVectorDim := 1
  sliceSizes := ![1]
  wf := gather_S65536_S30000000x1_S30000000_n_0_n_n_0_1_1_wf
def scatter_S131072_S30000000x1_S30000000_n_0_0_1 : ScatterDims S131072 S30000000x1 S30000000 where
  updateWindowDims := []
  insertedWindowDims := [0]
  scatterDimsToOperandDims := [0]
  indexVectorDim := 1
  wf := scatter_S131072_S30000000x1_S30000000_n_0_0_1_wf

abbrev win0_0 : Pipeline.Window sig grid0 :=
  Pipeline.Window.ofSpecClip (Memref.whole main_v3) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v4) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v5) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256 : Shape := ⟨2, ![256, 256]⟩
abbrev S30000000 : Shape := ⟨1, ![30000000]⟩
abbrev S65536 : Shape := ⟨1, ![65536]⟩
abbrev S_ : Shape := ⟨0, ![]⟩
abbrev S30000000x1 : Shape := ⟨2, ![30000000, 1]⟩
abbrev S1 : Shape := ⟨1, ![1]⟩
abbrev S1x1 : Shape := ⟨2, ![1, 1]⟩
abbrev S131072 : Shape := ⟨1, ![131072]⟩
abbrev S1024x128 : Shape := ⟨2, ![1024, 128]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S30000000, .i32⟩
  | .hbm, ⟨2, _⟩ => ⟨S30000000, .i32⟩
  | .hbm, ⟨3, _⟩ => ⟨S30000000, .f32⟩
  | .hbm, ⟨4, _⟩ => ⟨S256x256, .f32⟩
  | .hbm, ⟨5, _⟩ => ⟨S65536, .f32⟩
  | .hbm, ⟨6, _⟩ => ⟨S_, .i32⟩
  | .hbm, ⟨7, _⟩ => ⟨S30000000, .i32⟩
  | .hbm, ⟨8, _⟩ => ⟨S30000000, .i1⟩
  | .hbm, ⟨9, _⟩ => ⟨S_, .i32⟩
  | .hbm, ⟨10, _⟩ => ⟨S30000000, .i32⟩
  | .hbm, ⟨11, _⟩ => ⟨S30000000, .i32⟩
  | .hbm, ⟨12, _⟩ => ⟨S30000000, .i32⟩
  | .hbm, ⟨13, _⟩ => ⟨S30000000x1, .i32⟩
  | .hbm, ⟨14, _⟩ => ⟨S1, .i32⟩
  | .hbm, ⟨15, _⟩ => ⟨S_, .i32⟩
  | .hbm, ⟨16, _⟩ => ⟨S30000000x1, .i32⟩
  | .hbm, ⟨17, _⟩ => ⟨S30000000x1, .i1⟩
  | .hbm, ⟨18, _⟩ => ⟨S1x1, .i32⟩
  | .hbm, ⟨19, _⟩ => ⟨S30000000x1, .i32⟩
  | .hbm, ⟨20, _⟩ => ⟨S30000000x1, .i1⟩
  | .hbm, ⟨21, _⟩ => ⟨S30000000x1, .i1⟩
  | .hbm, ⟨22, _⟩ => ⟨S_, .i1⟩
  | .hbm, ⟨23, _⟩ => ⟨S30000000, .i1⟩
  | .hbm, ⟨24, _⟩ => ⟨S30000000, .f32⟩
  | .hbm, ⟨25, _⟩ => ⟨S_, .f32⟩
  | .hbm, ⟨26, _⟩ => ⟨S30000000, .f32⟩
  | .hbm, ⟨27, _⟩ => ⟨S30000000, .f32⟩
  | .hbm, ⟨28, _⟩ => ⟨S30000000, .f32⟩
  | .hbm, ⟨29, _⟩ => ⟨S_, .f32⟩
  | .hbm, ⟨30, _⟩ => ⟨S131072, .f32⟩
  | .hbm, ⟨31, _⟩ => ⟨S30000000x1, .i32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S1024x128, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]

class Facts₀ : Prop where
  transposes_S256x256_S256x256_1_0 : S256x256.Transposes [1, 0] S256x256
  shapeCasts_S256x256_S65536 : S256x256.ShapeCasts S65536
  bcast_S_S30000000 : S_.BroadcastsInDim S30000000 (![] : Fin 0 → Fin S30000000.rank)
  bcast_S30000000_S30000000x1_0 : S30000000.BroadcastsInDim S30000000x1 (![0] : Fin 1 → Fin S30000000x1.rank)
  bcast_S_S30000000x1 : S_.BroadcastsInDim S30000000x1 (![] : Fin 0 → Fin S30000000x1.rank)
  bcast_S1_S1x1_1 : S1.BroadcastsInDim S1x1 (![1] : Fin 1 → Fin S1x1.rank)
  bcast_S1x1_S30000000x1_0_1 : S1x1.BroadcastsInDim S30000000x1 (![0, 1] : Fin 2 → Fin S30000000x1.rank)
  reducesTo_S30000000x1_S30000000_d1 : S30000000x1.ReducesTo [1] S30000000
  h_S_ : 0 < S_.numel
  bcast_S_S131072 : S_.BroadcastsInDim S131072 (![] : Fin 0 → Fin S131072.rank)
  shapeCasts_S131072_S1024x128 : S131072.ShapeCasts S1024x128
  gather_S65536_S30000000x1_S30000000_n_0_n_n_0_1_1_wf : GatherDims.WF S65536 S30000000x1 S30000000 [] [0] [] [0] [] 1 ![1]
  scatter_S131072_S30000000x1_S30000000_n_0_0_1_wf : ScatterDims.WF S131072 S30000000x1 S30000000 [] [0] [0] 1

variable [Facts₀]

def gather_S65536_S30000000x1_S30000000_n_0_n_n_0_1_1 : GatherDims S65536 S30000000x1 S30000000 where
  offsetDims := []
  collapsedSliceDims := [0]
  operandBatchingDims := []
  startIndicesBatchingDims := []
  startIndexMap := [0]
  indexVectorDim := 1
  sliceSizes := ![1]
  wf := gather_S65536_S30000000x1_S30000000_n_0_n_n_0_1_1_wf
def scatter_S131072_S30000000x1_S30000000_n_0_0_1 : ScatterDims S131072 S30000000x1 S30000000 where
  updateWindowDims := []
  insertedWindowDims := [0]
  scatterDimsToOperandDims := [0]
  indexVectorDim := 1
  wf := scatter_S131072_S30000000x1_S30000000_n_0_0_1_wf

class Facts : Prop extends Facts₀ where

variable [Facts]
-- ==== Proof.FrameBits.lean ====
/-
  The multiply kernel at every grid point, and the run of the program around it.

  The kernel streams two [234375, 128] arrays `a` and `b` through VMEM in 29 blocks of 8192 rows and writes
  their lane-wise product back block by block.  234375 = 28 · 8192 + 4999, so the last block overhangs the arrays
  by 3193 rows: its fetches land only the 4999 rows inside the arrays in the leading part of the staging buffers,
  and the rest of each buffer holds words nothing names; the body multiplies those too, and the write-back moves
  only the leading 4999 rows of the product.  So what is stated of every staging buffer is its LEADING PART (the
  rows a transfer moves): after the body the two input buffers hold their blocks there, and the result's buffer
  the product of the two blocks, index by index.  Past the leading part each buffer is filled out with the zero
  word, which nothing reads.
-/
import proofs.«104967_j86792699117905_2_alg».proof.Proof.Gen.Kernel.Frame
import proofs.«104967_j86792699117905_2_alg».proof.Proof.Gen.Kernel.Skeleton
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's arithmetic -/

/-- The stored value is the product of the two loaded blocks, index by index (the two casts are to the blocks'
    own shape). -/
theorem pay_apply (x0 x1 : Vec F S8192x128 .f32) (j : S8192x128.Idx) :
    k0_pay1 x0 x1 j = FloatOps.mulf (x0 j) (x1 j) := by
  unfold k0_pay1
  rw [shapeCast_self, shapeCast_self]; rfl

/-- The whole staging block: the rectangle at the origin with the block's own extents, through which the body
    loads and stores. -/
abbrev r0 : Rect S8192x128 := Rect.unit (s := S8192x128) ![0, 0] S8192x128.size inb_S8192x128_S8192x128_0_0

theorem origin : (![0, 0] : Fin 2 → Nat) = fun _ => 0 := funext fun a => by fin_cases a <;> rfl

/-- The one store covers the buffer. -/
theorem cover_out (p0 : Vec F S8192x128 .f32) (y : S8192x128.Idx) :
    ∃ pc ∈ ([⟨r0, p0⟩] : List (View.Piece (Elt F) S8192x128 .f32)), y ∈ pc.1.set :=
  ⟨_, List.mem_singleton_self _, View.mem_set_unit_zero origin inb_S8192x128_S8192x128_0_0 y⟩

/-! ## The body's triple -/

set_option maxHeartbeats 1000000 in
/-- The body on whole staging memrefs holding `x0`, `x1` and anything: it leaves the first two as they were and
    the third holding the product `x0 · x1`. -/
theorem sound_kernel (c : Dev nD) (E : Set ℕ) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero origin]
  simp only [View.readAt_eq_ld, View.ld_unit_zero (S := S8192x128) origin]

/-! ## The proof data -/

/-- The filler past a block's leading part: the zero word (nothing reads it). -/
def zfill : S8192x128.Idx → Elt F .f32 := fun _ => Scalar.ofBits .f32 0#32

/-- Block `t` of the first operand `a`, as the fetch reads it: its rows inside the array (8192 of them, 4999 at
    the last point). -/
def ablk (c : Dev nD) (t : Fin cfg0.N) : (win0_0.xblock (grid0.coords t)).Idx → Elt F .f32 := iblk m c 0 t
/-- Block `t` of the second operand `b` (the three windows' index maps and cuts agree: one block shape). -/
def bblk (c : Dev nD) (t : Fin cfg0.N) : (win0_0.xblock (grid0.coords t)).Idx → Elt F .f32 := iblk m c 1 t

/-- The proof data of the pipeline on core `c`: the arrays as the region finds them; after the body at point `t`
    the operands' buffers hold their blocks on the leading part and the result's buffer the blocks' product there;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) zfill (ablk m c t)
    | ⟨1, _⟩ => win0_0.fill (grid0.coords t) zfill (bblk m c t)
    | ⟨2, _⟩ => win0_0.fill (grid0.coords t) zfill (fun j => FloatOps.mulf (ablk m c t j) (bblk m c t j))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) zfill (ablk m c t) := by dsimp only [dats]
theorem after_1 (c : Dev nD) (t : Fin cfg0.N) :
    (dats m 0 c).after 1 t = win0_0.fill (grid0.coords t) zfill (bblk m c t) := by dsimp only [dats]
theorem after_2 (c : Dev nD) (t : Fin cfg0.N) :
    (dats m 0 c).after 2 t
      = win0_0.fill (grid0.coords t) zfill (fun j => FloatOps.mulf (ablk m c t j) (bblk m c t j)) := by dsimp only [dats]

/-- Each operand's buffer was just fetched: its block on the leading part, anything (`d`) past it. -/
theorem before_0 (c : Dev nD) (t : Fin cfg0.N) (d) :
    (dats m 0 c).before 0 t d = win0_0.fill (grid0.coords t) d (ablk m c t) := by
  rw [Dat.before_fetched _ 0 t (fetch0_0 t)]; unfold Dat.fetched Dat.blockOf ablk iblk; rw [A_eq]
theorem before_1 (c : Dev nD) (t : Fin cfg0.N) (d) :
    (dats m 0 c).before 1 t d = win0_0.fill (grid0.coords t) d (bblk m c t) := by
  rw [Dat.before_fetched _ 1 t (fetch0_1 t)]; unfold Dat.fetched Dat.blockOf bblk iblk; rw [A_eq]; rfl
/-- The result's buffer was written back at the point before (or nothing has touched it): it holds anything. -/
theorem before_2 (c : Dev nD) (t : Fin cfg0.N) (d) : (dats m 0 c).before 2 t d = d :=
  Dat.before_out_reset _ 2 rfl t (by
    by_cases h : t.val = 0
    · exact .inl h
    · exact .inr ⟨h, flush0_2 _⟩) d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on its leading part only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point.  The operands' buffers hold their blocks filled out with anything, so the result's
    buffer ends holding the product of two filled blocks, whose leading part is the product of the blocks: a
    filled block read on its leading part is the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel c Set.univ (grid0.coords t) _ _ _ _ _ _
    (win0_0.fill (grid0.coords t) d0 (ablk m c t)) (win0_0.fill (grid0.coords t) d1 (bblk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = ablk m c t := by
    rw [after_0]; exact win0_0.cut_fill _ _ _
  have hy : win0_0.cut (grid0.coords t) ((dats m 0 c).after 1 t) = bblk m c t := by
    rw [after_1]; exact win0_0.cut_fill _ _ _
  have hs : win0_0.cut (grid0.coords t) ((dats m 0 c).after 2 t)
      = fun j => FloatOps.mulf (ablk m c t j) (bblk m c t j) := by
    rw [after_2]; exact win0_0.cut_fill _ _ _
  have hprod : k0_pay1 (win0_0.fill (grid0.coords t) d0 (ablk m c t)) (win0_0.fill (grid0.coords t) d1 (bblk m c t))
      = win0_0.fill (grid0.coords t) (k0_pay1 d0 d1) (fun j => FloatOps.mulf (ablk m c t j) (bblk m c t j)) := by
    funext j
    refine (pay_apply _ _ j).trans ?_
    unfold Window.fill
    split
    · rfl
    · exact (pay_apply d0 d1 j).symm
  isplitl [H0]
  · iexists d0
    change _ ⊢ owns (c : Thread nD τ) (win0_0.stage (cfg0.slots t 0)) fullShare
      (win0_0.fill (grid0.coords t) d0 (win0_0.cut (grid0.coords t) ((dats m 0 c).after 0 t)))
    rw [hx]
  isplitl [H1]
  · iexists d1
    change _ ⊢ owns (c : Thread nD τ) (win0_1.stage (cfg0.slots t 1)) fullShare
      (win0_0.fill (grid0.coords t) d1 (win0_0.cut (grid0.coords t) ((dats m 0 c).after 1 t)))
    rw [hy]
  · iexists k0_pay1 d0 d1
    change _ ⊢ owns (c : Thread nD τ) (win0_2.stage (cfg0.slots t 2)) fullShare
      (win0_0.fill (grid0.coords t) (k0_pay1 d0 d1) (win0_0.cut (grid0.coords t) ((dats m 0 c).after 2 t)))
    rw [hs, ← hprod]

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault;
    every array of the pipeline ends at what the write-backs leave and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameIdeal.lean ====
/-
  The multiply kernel at every grid point, and the run of the program around it.

  The kernel streams two [234375, 128] arrays `a` and `b` through VMEM in 29 blocks of 8192 rows and writes
  their lane-wise product back block by block.  234375 = 28 · 8192 + 4999, so the last block overhangs the arrays
  by 3193 rows: its fetches land only the 4999 rows inside the arrays in the leading part of the staging buffers,
  and the rest of each buffer holds words nothing names; the body multiplies those too, and the write-back moves
  only the leading 4999 rows of the product.  So what is stated of every staging buffer is its LEADING PART (the
  rows a transfer moves): after the body the two input buffers hold their blocks there, and the result's buffer
  the product of the two blocks, index by index.  Past the leading part each buffer is filled out with the zero
  word, which nothing reads.
-/
import proofs.«104967_j86792699117905_2_alg».proof.Proof.Gen.KernelIdeal.Frame
import proofs.«104967_j86792699117905_2_alg».proof.Proof.Gen.KernelIdeal.Skeleton
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's arithmetic -/

/-- The stored value is the product of the two loaded blocks, index by index (the two casts are to the blocks'
    own shape). -/
theorem pay_apply (x0 x1 : Vec F S8192x128 .f32) (j : S8192x128.Idx) :
    k0_pay1 x0 x1 j = FloatOps.mulf (x0 j) (x1 j) := by
  unfold k0_pay1
  rw [shapeCast_self, shapeCast_self]; rfl

/-- The whole staging block: the rectangle at the origin with the block's own extents, through which the body
    loads and stores. -/
abbrev r0 : Rect S8192x128 := Rect.unit (s := S8192x128) ![0, 0] S8192x128.size inb_S8192x128_S8192x128_0_0

theorem origin : (![0, 0] : Fin 2 → Nat) = fun _ => 0 := funext fun a => by fin_cases a <;> rfl

/-- The one store covers the buffer. -/
theorem cover_out (p0 : Vec F S8192x128 .f32) (y : S8192x128.Idx) :
    ∃ pc ∈ ([⟨r0, p0⟩] : List (View.Piece (Elt F) S8192x128 .f32)), y ∈ pc.1.set :=
  ⟨_, List.mem_singleton_self _, View.mem_set_unit_zero origin inb_S8192x128_S8192x128_0_0 y⟩

/-! ## The body's triple -/

set_option maxHeartbeats 1000000 in
/-- The body on whole staging memrefs holding `x0`, `x1` and anything: it leaves the first two as they were and
    the third holding the product `x0 · x1`. -/
theorem sound_kernel (c : Dev nD) (E : Set ℕ) (i : grid0.Coords)
    (arg1 : Memref sig .tc .vmem S8192x128 .f32) (harg1 : arg1.IsWhole)
    (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mul_kernel i arg1 harg1 arg2 harg2 arg3 harg3) K := by
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero origin]
  simp only [View.readAt_eq_ld, View.ld_unit_zero (S := S8192x128) origin]

/-! ## The proof data -/

/-- The filler past a block's leading part: the zero word (nothing reads it). -/
def zfill : S8192x128.Idx → Elt F .f32 := fun _ => Scalar.ofBits .f32 0#32

/-- Block `t` of the first operand `a`, as the fetch reads it: its rows inside the array (8192 of them, 4999 at
    the last point). -/
def ablk (c : Dev nD) (t : Fin cfg0.N) : (win0_0.xblock (grid0.coords t)).Idx → Elt F .f32 := iblk m c 0 t
/-- Block `t` of the second operand `b` (the three windows' index maps and cuts agree: one block shape). -/
def bblk (c : Dev nD) (t : Fin cfg0.N) : (win0_0.xblock (grid0.coords t)).Idx → Elt F .f32 := iblk m c 1 t

/-- The proof data of the pipeline on core `c`: the arrays as the region finds them; after the body at point `t`
    the operands' buffers hold their blocks on the leading part and the result's buffer the blocks' product there;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) zfill (ablk m c t)
    | ⟨1, _⟩ => win0_0.fill (grid0.coords t) zfill (bblk m c t)
    | ⟨2, _⟩ => win0_0.fill (grid0.coords t) zfill (fun j => FloatOps.mulf (ablk m c t j) (bblk m c t j))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) zfill (ablk m c t) := by dsimp only [dats]
theorem after_1 (c : Dev nD) (t : Fin cfg0.N) :
    (dats m 0 c).after 1 t = win0_0.fill (grid0.coords t) zfill (bblk m c t) := by dsimp only [dats]
theorem after_2 (c : Dev nD) (t : Fin cfg0.N) :
    (dats m 0 c).after 2 t
      = win0_0.fill (grid0.coords t) zfill (fun j => FloatOps.mulf (ablk m c t j) (bblk m c t j)) := by dsimp only [dats]

/-- Each operand's buffer was just fetched: its block on the leading part, anything (`d`) past it. -/
theorem before_0 (c : Dev nD) (t : Fin cfg0.N) (d) :
    (dats m 0 c).before 0 t d = win0_0.fill (grid0.coords t) d (ablk m c t) := by
  rw [Dat.before_fetched _ 0 t (fetch0_0 t)]; unfold Dat.fetched Dat.blockOf ablk iblk; rw [A_eq]
theorem before_1 (c : Dev nD) (t : Fin cfg0.N) (d) :
    (dats m 0 c).before 1 t d = win0_0.fill (grid0.coords t) d (bblk m c t) := by
  rw [Dat.before_fetched _ 1 t (fetch0_1 t)]; unfold Dat.fetched Dat.blockOf bblk iblk; rw [A_eq]; rfl
/-- The result's buffer was written back at the point before (or nothing has touched it): it holds anything. -/
theorem before_2 (c : Dev nD) (t : Fin cfg0.N) (d) : (dats m 0 c).before 2 t d = d :=
  Dat.before_out_reset _ 2 rfl t (by
    by_cases h : t.val = 0
    · exact .inl h
    · exact .inr ⟨h, flush0_2 _⟩) d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on its leading part only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point.  The operands' buffers hold their blocks filled out with anything, so the result's
    buffer ends holding the product of two filled blocks, whose leading part is the product of the blocks: a
    filled block read on its leading part is the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel c Set.univ (grid0.coords t) _ _ _ _ _ _
    (win0_0.fill (grid0.coords t) d0 (ablk m c t)) (win0_0.fill (grid0.coords t) d1 (bblk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = ablk m c t := by
    rw [after_0]; exact win0_0.cut_fill _ _ _
  have hy : win0_0.cut (grid0.coords t) ((dats m 0 c).after 1 t) = bblk m c t := by
    rw [after_1]; exact win0_0.cut_fill _ _ _
  have hs : win0_0.cut (grid0.coords t) ((dats m 0 c).after 2 t)
      = fun j => FloatOps.mulf (ablk m c t j) (bblk m c t j) := by
    rw [after_2]; exact win0_0.cut_fill _ _ _
  have hprod : k0_pay1 (win0_0.fill (grid0.coords t) d0 (ablk m c t)) (win0_0.fill (grid0.coords t) d1 (bblk m c t))
      = win0_0.fill (grid0.coords t) (k0_pay1 d0 d1) (fun j => FloatOps.mulf (ablk m c t j) (bblk m c t j)) := by
    funext j
    refine (pay_apply _ _ j).trans ?_
    unfold Window.fill
    split
    · rfl
    · exact (pay_apply d0 d1 j).symm
  isplitl [H0]
  · iexists d0
    change _ ⊢ owns (c : Thread nD τ) (win0_0.stage (cfg0.slots t 0)) fullShare
      (win0_0.fill (grid0.coords t) d0 (win0_0.cut (grid0.coords t) ((dats m 0 c).after 0 t)))
    rw [hx]
  isplitl [H1]
  · iexists d1
    change _ ⊢ owns (c : Thread nD τ) (win0_1.stage (cfg0.slots t 1)) fullShare
      (win0_0.fill (grid0.coords t) d1 (win0_0.cut (grid0.coords t) ((dats m 0 c).after 1 t)))
    rw [hy]
  · iexists k0_pay1 d0 d1
    change _ ⊢ owns (c : Thread nD τ) (win0_2.stage (cfg0.slots t 2)) fullShare
      (win0_0.fill (grid0.coords t) (k0_pay1 d0 d1) (win0_0.cut (grid0.coords t) ((dats m 0 c).after 2 t)))
    rw [hs, ← hprod]

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault;
    every array of the pipeline ends at what the write-backs leave and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelValue.lean ====
/-
  What the kernel's result array holds after the run: the lane-wise product of its two operand arrays.

  Point `t` of the 29 writes back rows 8192·t … of the product of the two blocks it fetched — 8192 rows, or the
  4999 rows inside the array at the last point.  Each written block is the block of ONE function of the array
  index, the product `a · b` of the whole operand arrays, because the three windows move the same rows at every
  point; and the row `r` of the array lies in the block of point `r / 8192`, so the 29 blocks cover the array.
-/
import proofs.«104967_j86792699117905_2_alg».proof.Proof.FrameIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The three windows' blocks at point `t`: block row `t`, block column 0, on each; the moved part has 8192 rows
    before the last point and 4999 at it, and all 128 lanes.  Decided once over the grid. -/
theorem idx_facts : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.xsize (grid0.coords t) (0 : Fin 2) = (if t.val < 28 then 8192 else 4999)
    ∧ win0_2.xsize (grid0.coords t) (1 : Fin 2) = 128 :=
  (by decide +kernel : ∀ t : Fin grid0.N, _)

/-- The product of the two operand arrays as the region finds them, index by index. -/
abbrev prodArr (c : Dev nD) : Buf (Elt F) ((c : Thread nD τ).loc main_v5) :=
  mulf (s := S234375x128) (V m c main_v3) (V m c main_v4)

/-- Reading the result's block `t` of a lane-wise product of two arrays is the product of the operands' blocks `t`
    read at the same index: the three windows move the same rows at every point.  (Over any two arrays.) -/
theorem read_prod (X Y : S234375x128.Idx → Elt F .f32) (t : Fin cfg0.N) (j : (win0_0.xblock (grid0.coords t)).Idx) :
    (win0_2.blk t).view.read (Elt F) (mulf (s := S234375x128) X Y) j
      = FloatOps.mulf ((win0_0.blk t).view.read (Elt F) X j) ((win0_1.blk t).view.read (Elt F) Y j) := rfl

theorem ablk_eq (c : Dev nD) (t : Fin cfg0.N) :
    ablk m c t = (win0_0.blk t).view.read (Elt F) (V m c main_v3) := by unfold ablk iblk; rfl
theorem bblk_eq (c : Dev nD) (t : Fin cfg0.N) :
    bblk m c t = (win0_1.blk t).view.read (Elt F) (V m c main_v4) := by unfold bblk iblk; rfl

/-- What point `t` writes back is its block of the whole-array product. -/
theorem flushed_eq (c : Dev nD) (t : Fin cfg0.N) :
    (dats m 0 c).flushed 2 t = ((cfg0.win 2).blk t).view.read (Elt F) (prodArr m c) := by
  have h : (dats m 0 c).flushed 2 t = fun j => FloatOps.mulf (ablk m c t j) (bblk m c t j) := by
    unfold Dat.flushed; rw [after_2]; exact win0_0.cut_fill _ _ _
  rw [h, ablk_eq, bblk_eq]
  funext j
  exact (read_prod (V m c main_v3) (V m c main_v4) t j).symm

/-- An index of the array is in point `t`'s block iff its row is among the block's rows inside the array. -/
theorem mem_blk (t : Fin cfg0.N) (i : S234375x128.Idx) :
    i ∈ (win0_2.blk t).view.set
      ↔ t.val * 8192 ≤ (i 0 : Nat) ∧ (i 0 : Nat) < t.val * 8192 + (if t.val < 28 then 8192 else 4999) := by
  show i ∈ ((View.whole main_v5).slice (win0_2.rect t)).set ↔ _
  rw [View.set_slice_whole, Rect.mem_set_unit]
  obtain ⟨h0, h1, -, -, -, -, hx0, hx1⟩ := idx_facts t
  have hi1 : (i 1 : Nat) < 128 := (i 1).isLt
  refine ⟨fun h => ?_, fun h a => ?_⟩
  · have h' := h 0
    change win0_2.index t 0 * 8192 ≤ (i 0 : Nat)
      ∧ (i 0 : Nat) < win0_2.index t 0 * 8192 + win0_2.xsize (grid0.coords t) 0 at h'
    rw [h0, hx0] at h'; exact h'
  · match a with
    | ⟨0, _⟩ =>
      change win0_2.index t 0 * 8192 ≤ (i 0 : Nat)
        ∧ (i 0 : Nat) < win0_2.index t 0 * 8192 + win0_2.xsize (grid0.coords t) 0
      rw [h0, hx0]; exact h
    | ⟨1, _⟩ =>
      change win0_2.index t 1 * 128 ≤ (i 1 : Nat)
        ∧ (i 1 : Nat) < win0_2.index t 1 * 128 + win0_2.xsize (grid0.coords t) 1
      rw [h1, hx1]; omega

/-- Row `r` lies in the block of point `r / 8192`: the blocks cover the array. -/
theorem cover (i : S234375x128.Idx) :
    ∃ t : Fin cfg0.N, (cfg0.win 2).flush t = true ∧ i ∈ ((cfg0.win 2).blk t).view.set := by
  have hi : (i 0 : Nat) < 234375 := (i 0).isLt
  have hN : cfg0.N = 29 := N_0
  refine ⟨⟨(i 0 : Nat) / 8192, by rw [hN]; omega⟩, flush0_2 _, ?_⟩
  rw [mem_blk]
  show (i 0 : Nat) / 8192 * 8192 ≤ (i 0 : Nat)
    ∧ (i 0 : Nat) < (i 0 : Nat) / 8192 * 8192 + (if (i 0 : Nat) / 8192 < 28 then 8192 else 4999)
  split <;> omega

/-- The result array after the 29 write-backs is the product of the operand arrays. -/
theorem final (c : Dev nD) : (dats m 0 c).arrAt 2 cfg0.N = prodArr m c :=
  (dats m 0 c).arrAt_eq_of_cover 2 (prodArr m c) (fun t _ => flushed_eq m c t) (fun i => cover i)

end Cert.KernelIdeal.Hand

end
-- ==== Proof.LibTypedRef.lean ====
/-
  A typed buffer reference moves contents between the tensor value's type and the buffer's own type along the
  equation of the two types; moving there and back is the identity.  Stated for ANY typed reference (the equation a
  variable), so that it removes the round trip around an operation's result without unfolding the operation.
-/
import Idealize.ShloMosaic.Lib.StableHlo

namespace Idealize.ShloMosaic.StableHlo.TRef

variable {sig : RefSig} {Val : EltTy → Type} {T : BufTy}

/-- Contents stored at a typed reference and read back are the contents. -/
theorem ofBuf_toBuf (x : TRef sig T) (v : T.Contents Val) : x.ofBuf (x.toBuf v) = v := by
  obtain ⟨r, h, h1, h2⟩ := x
  subst h
  rfl

/-- Contents read at a typed reference and stored back are the contents. -/
theorem toBuf_ofBuf (x : TRef sig T) (v : x.ref.ty.Contents Val) : x.toBuf (x.ofBuf v) = v := by
  obtain ⟨r, h, h1, h2⟩ := x
  subst h
  rfl

end Idealize.ShloMosaic.StableHlo.TRef
-- ==== Proof.KernelHost.lean ====
/-
  The host operations around the kernel, read back as functions of the argument arrays.

  Before the region the program transposes the 256×256 field, flattens it, and looks it up at the column indices
  (a negative index is wrapped by 65536; an index still outside 0…65535 reads the fill word instead of a table entry);
  the values and the looked-up entries are then re-laid as [234375, 128] arrays, which are the kernel's operands.
  After the region the kernel's result is re-laid back to a vector of 30,000,000 contributions, scatter-added by
  row index into 131072 zero bins, multiplied by the broadcast constant 1.0 and re-laid as [1024, 128].
-/
import proofs.«104967_j86792699117905_2_alg».proof.Proof.KernelValue
import Idealize.ShloMosaic.Lib.StableHlo.Run
import proofs.«104967_j86792699117905_2_alg».proof.Proof.LibTypedRef

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The table lookup: entry `e` is the flattened transposed field at column index `a2 e` (wrapped once by 65536 when
    negative), or the fill word when that index is not in 0…65535. -/
def gathered (a0 : FVec F S256x256 .f32) (a2 : IVec S30000000 32) : FVec F S30000000 .f32 :=
  let idx : IVec S30000000 32 :=
    select (cmpi .slt a2 (broadcastInDim S30000000 ![] bcast_S_S30000000 (constantI S_ 32 0#32)))
      (addi a2 (broadcastInDim S30000000 ![] bcast_S_S30000000 (constantI S_ 32 65536#32))) a2
  let col : IVec S30000000x1 32 := broadcastInDim S30000000x1 ![0] bcast_S30000000_S30000000x1_0 idx
  let inRange : IVec S30000000 1 :=
    Host.reduce IntOp.andi
      (andi (cmpi .sge col (broadcastInDim S30000000x1 ![] bcast_S_S30000000x1 (constantI S_ 32 0#32)))
        (cmpi .sle col (broadcastInDim S30000000x1 ![0, 1] bcast_S1x1_S30000000x1_0_1
          (broadcastInDim S1x1 ![1] bcast_S1_S1x1_1 (constantI S1 32 65535#32)))))
      (constantI S_ 1 1#1) reducesTo_S30000000x1_S30000000_d1 h_S_
  select inRange
    (Host.gather gather_S65536_S30000000x1_S30000000_n_0_n_n_0_1_1
      (shapeCast S65536 (transpose S256x256 [1, 0] a0 transposes_S256x256_S256x256_1_0) shapeCasts_S256x256_S65536) col)
    (broadcastInDim S30000000 ![] bcast_S_S30000000 (constant (F := F) S_ .f32 0x7FC00000#32))

/-- The accumulation: the contributions scatter-added by row index into 131072 zero bins, times the broadcast 1.0,
    re-laid as [1024, 128]. -/
def binned (contrib : FVec F S30000000 .f32) (a1 : IVec S30000000 32) : FVec F S1024x128 .f32 :=
  shapeCast S1024x128
    (mulf
      (Host.scatterAdd scatter_S131072_S30000000x1_S30000000_n_0_0_1
        (broadcastInDim S131072 ![] bcast_S_S131072 (constant (F := F) S_ .f32 0x00000000#32))
        (broadcastInDim S30000000x1 ![0] bcast_S30000000_S30000000x1_0 a1) contrib)
      (broadcastInDim S131072 ![] bcast_S_S131072 (constant (F := F) S_ .f32 0x3F800000#32)))
    shapeCasts_S131072_S1024x128

/-- The program's result as a function of its four argument arrays: the contributions are the product, taken on
    the [234375, 128] re-layings and re-laid back, of the values and the looked-up field entries. -/
def result (a0 : FVec F S256x256 .f32) (a1 a2 : IVec S30000000 32) (a3 : FVec F S30000000 .f32) : FVec F S1024x128 .f32 :=
  binned
    (shapeCast S30000000
      (mulf (shapeCast S234375x128 a3 shapeCasts_S30000000_S234375x128)
        (shapeCast S234375x128 (gathered a0 a2) shapeCasts_S30000000_S234375x128))
      shapeCasts_S234375x128_S30000000) a1

/-- The kernel's first operand is the values re-laid. -/
theorem V_v3 (c : Dev nD) : (V m c main_v3 : S234375x128.Idx → Elt F .f32)
    = shapeCast S234375x128 (m ((c : Thread nD τ).loc main_arg3)) shapeCasts_S30000000_S234375x128 := by
  dsimp only [V, V0]
  simp only [hostOps0, hostOps0_1, hostOps0_2, List.flatten_cons, List.flatten_nil, List.append_nil, List.cons_append,
    List.nil_append]
  after_results
  funext i
  rfl

/-- The buffers' contents after the host operations up to and including the lookup (before the two re-layings). -/
def W (c : Dev nD) : Valuation τ sig (Elt F) := StableHlo.after (hostOps0 ++ hostOps0_1) (fun b => m (c, b))

/-- The region-entry contents are `W` followed by the two re-layings. -/
theorem V0_eq (c : Dev nD) : V0 m c = StableHlo.after hostOps0_2 (W m c) := by
  unfold W
  rw [← StableHlo.after_append]
  dsimp only [V0]
  simp only [List.flatten_cons, List.flatten_nil, List.append_nil, List.append_assoc]

set_option maxHeartbeats 4000000 in
/-- The looked-up field entries, read at their buffer through its typed reference: every move of contents between a
    value's type and its buffer's type then comes in a there-and-back pair, which is the identity, and what is left
    is the lookup's operations composed. -/
theorem W_v2 (c : Dev nD) :
    (StableHlo.TRef.of main_v2 : StableHlo.TRef sig ⟨S30000000, .f32⟩).ofBuf (W m c (Proc.devRef .tc main_v2))
      = gathered (m ((c : Thread nD τ).loc main_arg0)) (m ((c : Thread nD τ).loc main_arg2)) := by
  unfold W
  simp only [hostOps0, hostOps0_1, List.cons_append, List.nil_append]
  after_results_simp
  simp only [StableHlo.TRef.ofBuf_toBuf]
  generalize m ((c : Thread nD τ).loc main_arg0) = a0
  generalize m ((c : Thread nD τ).loc main_arg2) = a2
  rfl

/-- The kernel's second operand is the looked-up field entries re-laid. -/
theorem V_v4 (c : Dev nD) : (V m c main_v4 : S234375x128.Idx → Elt F .f32)
    = shapeCast S234375x128 (gathered (m ((c : Thread nD τ).loc main_arg0)) (m ((c : Thread nD τ).loc main_arg2)))
        shapeCasts_S30000000_S234375x128 := by
  rw [← W_v2 m c]
  dsimp only [V]
  rw [V0_eq]
  generalize W m c = W'
  simp only [hostOps0_2]
  after_results
  funext i
  rfl

/-- The program's result buffer after the host tail: the tail's operations applied to the kernel's result array,
    which is the product of the two operands (`final`), and to the row indices. -/
theorem tail_eq (c : Dev nD) :
    (Pipeline.afterTail₀ cfgs (dats m) 0 (V0 m) [hostOps1] c main_v12 : S1024x128.Idx → Elt F .f32)
      = result (m ((c : Thread nD τ).loc main_arg0)) (m ((c : Thread nD τ).loc main_arg1))
          (m ((c : Thread nD τ).loc main_arg2)) (m ((c : Thread nD τ).loc main_arg3)) := by
  have e5 : Pipeline.withArrays (cfgs 0).spec c (V0 m c) (fun w => (dats m 0 c).arrAt w (cfgs 0).N)
      (Proc.devRef .tc main_v5) = prodArr m c :=
    (Pipeline.withArrays_arr spec0 launch0.win.arr_inj c _ _ 2).trans (final m c)
  have e1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1 (by decide : ∀ w, Pipeline.arrRef spec0 w ≠ main_arg1)).trans
      (V_main_arg1 m c)
  unfold Pipeline.afterTail₀
  show StableHlo.after hostOps1 _ (Proc.devRef .tc main_v12) = _
  after_results
  rw [e5, e1]
  dsimp only [prodArr]
  rw [V_v3, V_v4]
  generalize m ((c : Thread nD τ).loc main_arg0) = a0
  generalize m ((c : Thread nD τ).loc main_arg1) = a1
  generalize m ((c : Thread nD τ).loc main_arg2) = a2
  generalize m ((c : Thread nD τ).loc main_arg3) = a3
  funext i
  rfl

/-- The idealized kernel program's run: every weakly fair execution terminates without a fault, with the result
    buffer at `result` of the argument arrays and the argument arrays as launched. -/
theorem run_value : θ_run defs (onTc (τ := τ) (main (F := F))) ⟨m, fun _ => 0, ρ⟩ (fun r => ∀ c : Dev nD,
      r.2.mem ((c.tc : Thread nD τ).loc main_v12)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v12 (Pipeline.mem_restRefs_of main_v12 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference computes a sparse matrix–vector product: response[r] = Σ over the nonzeros e with row e = r of
  vals e · field[col e], where field[k] is read from the column-major flattening of the 256×256 field (the field
  transposed, then flattened to 65536 entries). The lookup field[col e] wraps a negative index by 65536, gathers,
  and puts the fill word where the wrapped index is out of range; the products are scatter-added by row index into
  131072 zero bins, multiplied by the broadcast 1.0, and reshaped to [1024,128].
-/
import proofs.«104967_j86792699117905_2_alg».proof.ReferenceIdeal
import proofs.«104967_j86792699117905_2_alg».proof.Proof.Gen.ReferenceIdeal
import proofs.«104967_j86792699117905_2_alg».proof.Proof.LibTypedRef
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 33 operations in order, the two calls unfolded: the transpose and the flattening, the 22 of the lookup
    (the select of the nested call among them), then the product, the zero bins, the scatter-add, the product with 1.0
    and the reshape. -/
abbrev ops : List (HloOp τ sig (Elt F)) :=
  [ unary main_arg0 main_v0 ((transpose S256x256 [1, 0] · transposes_S256x256_S256x256_1_0) : (⟨S256x256, .f32⟩ : BufTy).Contents (Elt F) → (⟨S256x256, .f32⟩ : BufTy).Contents (Elt F)),
    reshape main_v0 main_v1 rfl shapeCasts_S256x256_S65536,
    TRef.nullary main_call0.c (constantI S_ 32 0#32),
    TRef.unary main_call0.c main_call0.v0 (broadcastInDim S30000000 ![] bcast_S_S30000000),
    TRef.binary (.of main_arg2) main_call0.v0 main_call0.v1 (cmpi .slt),
    TRef.nullary main_call0.c_0 (constantI S_ 32 65536#32),
    TRef.unary main_call0.c_0 main_call0.v2 (broadcastInDim S30000000 ![] bcast_S_S30000000),
    TRef.binary (.of main_arg2) main_call0.v2 main_call0.v3 addi,
    TRef.ternary main_call0.v1 main_call0.v3 (.of main_arg2) main_call0.call0.v0 select,
    TRef.unary main_call0.call0.v0 main_call0.v5 (broadcastInDim S30000000x1 ![0] bcast_S30000000_S30000000x1_0),
    TRef.nullary main_call0.c_1 (constantI S1 32 65535#32),
    TRef.nullary main_call0.c_2 (constantI S_ 32 0#32),
    TRef.unary main_call0.c_2 main_call0.v6 (broadcastInDim S30000000x1 ![] bcast_S_S30000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S30000000x1 ![0, 1] bcast_S1x1_S30000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S30000000x1_S30000000_d1 h_S_),
    TRef.binary (.of main_v1) main_call0.v5 main_call0.v13 (fun x i => Host.gather gather_S65536_S30000000x1_S30000000_n_0_n_n_0_1_1 x i),
    TRef.nullary main_call0.cst (constant S_ .f32 0x7FC00000#32),
    TRef.unary main_call0.cst main_call0.v14 (broadcastInDim S30000000 ![] bcast_S_S30000000),
    TRef.ternary main_call0.v12 main_call0.v13 main_call0.v14 main_call0.v15 select,
    binary main_arg3 main_v2 main_v3 (mulf : (⟨S30000000, .f32⟩ : BufTy).Contents (Elt F) → (⟨S30000000, .f32⟩ : BufTy).Contents (Elt F) → (⟨S30000000, .f32⟩ : BufTy).Contents (Elt F)),
    nullary main_cst (constant S_ .f32 0x00000000#32),
    unary main_cst main_v4 (broadcastInDim S131072 ![] bcast_S_S131072 : (⟨S_, .f32⟩ : BufTy).Contents (Elt F) → (⟨S131072, .f32⟩ : BufTy).Contents (Elt F)),
    unary main_arg1 main_v5 (broadcastInDim S30000000x1 ![0] bcast_S30000000_S30000000x1_0 : (⟨S30000000, .i32⟩ : BufTy).Contents (Elt F) → (⟨S30000000x1, .i32⟩ : BufTy).Contents (Elt F)),
    ternary main_v4 main_v5 main_v3 main_v6 ((fun x i u => Host.scatterAdd scatter_S131072_S30000000x1_S30000000_n_0_0_1 x i u) : (⟨S131072, .f32⟩ : BufTy).Contents (Elt F) → (⟨S30000000x1, .i32⟩ : BufTy).Contents (Elt F) → (⟨S30000000, .f32⟩ : BufTy).Contents (Elt F) → (⟨S131072, .f32⟩ : BufTy).Contents (Elt F)),
    nullary main_cst_0 (constant S_ .f32 0x3F800000#32),
    unary main_cst_0 main_v7 (broadcastInDim S131072 ![] bcast_S_S131072 : (⟨S_, .f32⟩ : BufTy).Contents (Elt F) → (⟨S131072, .f32⟩ : BufTy).Contents (Elt F)),
    binary main_v6 main_v7 main_v8 (mulf : (⟨S131072, .f32⟩ : BufTy).Contents (Elt F) → (⟨S131072, .f32⟩ : BufTy).Contents (Elt F) → (⟨S131072, .f32⟩ : BufTy).Contents (Elt F)),
    reshape main_v8 main_v9 rfl shapeCasts_S131072_S1024x128 ]

-- thirty-three binds re-associated under the unfolded calls
set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

/-- the signature scopes no buffer -/
theorem scopedRefs_eq : (Finset.univ.filter fun b : Ref sig .tc => b.isScoped) = ∅ := by decide
/-- the signature scopes no semaphore -/
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    binary_bufs_sub .., nullary_bufs_sub .., unary_bufs_sub .., unary_bufs_sub .., ternary_bufs_sub .., nullary_bufs_sub ..,
    unary_bufs_sub .., binary_bufs_sub .., reshape_bufs_sub ..⟩

/-- the index column the lookup reads at: each index of arg2, a negative one wrapped by 65536, as a [30000000,1] column -/
def wrapped (a2 : (⟨S30000000, .i32⟩ : BufTy).Contents (Elt F)) : (⟨S30000000x1, .i32⟩ : BufTy).Contents (Elt F) :=
  broadcastInDim S30000000x1 ![0] bcast_S30000000_S30000000x1_0
    (select (cmpi .slt a2 (broadcastInDim S30000000 ![] bcast_S_S30000000 (constantI S_ 32 0#32)))
      (addi a2 (broadcastInDim S30000000 ![] bcast_S_S30000000 (constantI S_ 32 65536#32))) a2)

/-- the table lookup: arg0 transposed, flattened, and read at the indices arg2 the way @_take reads it (negative
    indices wrapped by 65536, the gather, and the fill word where the wrapped index is out of range) -/
def gathered (a0 : (⟨S256x256, .f32⟩ : BufTy).Contents (Elt F)) (a2 : (⟨S30000000, .i32⟩ : BufTy).Contents (Elt F)) :
    (⟨S30000000, .f32⟩ : BufTy).Contents (Elt F) :=
  select
    (Host.reduce IntOp.andi
      (andi (cmpi .sge (wrapped (F := F) a2) (broadcastInDim S30000000x1 ![] bcast_S_S30000000x1 (constantI S_ 32 0#32)))
        (cmpi .sle (wrapped (F := F) a2)
          (broadcastInDim S30000000x1 ![0, 1] bcast_S1x1_S30000000x1_0_1
            (broadcastInDim S1x1 ![1] bcast_S1_S1x1_1 (constantI S1 32 65535#32)))))
      (constantI S_ 1 1#1) reducesTo_S30000000x1_S30000000_d1 h_S_)
    (Host.gather gather_S65536_S30000000x1_S30000000_n_0_n_n_0_1_1
      (shapeCast S65536 (transpose S256x256 [1, 0] a0 transposes_S256x256_S256x256_1_0) shapeCasts_S256x256_S65536)
      (wrapped (F := F) a2))
    (broadcastInDim S30000000 ![] bcast_S_S30000000 (constant S_ .f32 0x7FC00000#32))

/-- the accumulation: the contributions scatter-added by row index into 131072 zero bins, times the broadcast 1.0,
    reshaped to [1024,128] -/
def binned (contrib : (⟨S30000000, .f32⟩ : BufTy).Contents (Elt F)) (a1 : (⟨S30000000, .i32⟩ : BufTy).Contents (Elt F)) :
    (⟨S1024x128, .f32⟩ : BufTy).Contents (Elt F) :=
  shapeCast S1024x128
    (mulf
      (Host.scatterAdd scatter_S131072_S30000000x1_S30000000_n_0_0_1
        (broadcastInDim S131072 ![] bcast_S_S131072 (constant S_ .f32 0x00000000#32))
        (broadcastInDim S30000000x1 ![0] bcast_S30000000_S30000000x1_0 a1) contrib)
      (broadcastInDim S131072 ![] bcast_S_S131072 (constant S_ .f32 0x3F800000#32)))
    shapeCasts_S131072_S1024x128

/-- the reference's value: the values times the looked-up field entries, accumulated by row -/
def result (a0 : (⟨S256x256, .f32⟩ : BufTy).Contents (Elt F)) (a1 : (⟨S30000000, .i32⟩ : BufTy).Contents (Elt F))
    (a2 : (⟨S30000000, .i32⟩ : BufTy).Contents (Elt F)) (a3 : (⟨S30000000, .f32⟩ : BufTy).Contents (Elt F)) :
    (⟨S1024x128, .f32⟩ : BufTy).Contents (Elt F) :=
  binned (mulf a3 (gathered a0 a2)) a1

-- the reduction, the gather and the scatter stay folded while the two sides are compared: the equation never looks inside them
attribute [local irreducible] Host.reduce Host.gather Host.scatterAdd in
set_option maxRecDepth 8192 in
/-- after the 33 operations the result buffer holds `result` of the four arguments' contents: each operation's result
    read back, the round trips through the typed references removed, the two sides are then the same term -/
theorem out_eq (V : Valuation τ sig (Elt F)) :
    after ops V (main_v9 : DevRef τ sig)
      = result (V (main_arg0 : DevRef τ sig)) (V (main_arg1 : DevRef τ sig)) (V (main_arg2 : DevRef τ sig))
          (V (main_arg3 : DevRef τ sig)) := by
  after_results_simp
  simp only [TRef.ofBuf_toBuf]
  rfl

/-- no operation writes an argument's buffer: each keeps its contents -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp

/-- On every device, for any float values, from any memory with zero counters: every weakly fair execution of @main
    terminates with the result buffer at `result` of the four arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v9) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v9).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.LibReshapePointwise.lean ====
/-
  Re-laying an array commutes with a lane-wise operation.

  A reshape (`shapeCast`) reads its operand at the row-major image of the index, so the reshape of a lane-wise
  product is the lane-wise product of the reshapes; hence a product computed on arrays re-laid to another shape and
  re-laid back is the product of the arrays themselves.  No property of the numbers is used: the statements hold at
  every float instance.
-/
import Idealize.ShloMosaic.PureOps
import Idealize.ShloMosaic.Lib.Pipeline.Value

noncomputable section

namespace Idealize.ShloMosaic.ReshapePointwise

open Idealize.ShloMosaic

variable {F : FTy → Type} [FloatOps F] {φ : FTy}

/-- The reshape of a lane-wise product is the lane-wise product of the reshapes. -/
theorem shapeCast_mulf {s t : Shape} (x y : FVec F s φ) (h : s.ShapeCasts t) :
    shapeCast t (mulf x y) h = mulf (shapeCast t x h) (shapeCast t y h) := rfl

/-- A lane-wise product taken on arrays re-laid from `s` to `t`, re-laid back to `s`, is the product of the arrays. -/
theorem mulf_through_reshape {s t : Shape} (x y : FVec F s φ) (h : s.ShapeCasts t) (h' : t.ShapeCasts s) :
    shapeCast s (mulf (shapeCast t x h) (shapeCast t y h)) h' = mulf x y := by
  rw [shapeCast_mulf, shapeCast_shapeCast, shapeCast_shapeCast]

end Idealize.ShloMosaic.ReshapePointwise

end
-- ==== Proof.Bridge.lean ====
/-
  The two idealized programs compute one function of the argument arrays.

  Both look the transposed, flattened field up at the column indices, multiply by the values, scatter-add by row
  index into 131072 zero bins, multiply by 1.0 and re-lay as [1024, 128].  They differ in one place: the reference
  multiplies the two 30,000,000-vectors directly, the kernel program re-lays both as [234375, 128], multiplies those
  lane by lane in the kernel, and re-lays the product back.  A reshape only renames the index, so the product taken
  through it is the same product; no property of the numbers is used, and the inputs' finiteness is not needed.
-/
import proofs.«104967_j86792699117905_2_alg».proof.Proof.KernelHost
import proofs.«104967_j86792699117905_2_alg».proof.Proof.RefRun
import proofs.«104967_j86792699117905_2_alg».proof.Proof.LibReshapePointwise

set_option maxRecDepth 16384

noncomputable section

namespace Cert.Bridge

open Idealize.ShloMosaic

variable {F : FTy → Type} [FloatOps F]

/-- The two programs' table lookups are the same operations on the same shapes. -/
theorem gathered_eq (a0 : FVec F Cert.KernelIdeal.S256x256 .f32) (a2 : IVec Cert.KernelIdeal.S30000000 32) :
    Cert.ReferenceIdeal.Hand.gathered (F := F) a0 a2 = Cert.KernelIdeal.Hand.gathered a0 a2 := rfl

/-- So are their accumulations. -/
theorem binned_eq (x : FVec F Cert.KernelIdeal.S30000000 .f32) (a1 : IVec Cert.KernelIdeal.S30000000 32) :
    Cert.ReferenceIdeal.Hand.binned (F := F) x a1 = Cert.KernelIdeal.Hand.binned x a1 := rfl

/-- The reference's result is the kernel program's: the product through the re-laying is the product. -/
theorem result_eq (a0 : FVec F Cert.KernelIdeal.S256x256 .f32) (a1 a2 : IVec Cert.KernelIdeal.S30000000 32)
    (a3 : FVec F Cert.KernelIdeal.S30000000 .f32) :
    Cert.ReferenceIdeal.Hand.result (F := F) a0 a1 a2 a3 = Cert.KernelIdeal.Hand.result a0 a1 a2 a3 := by
  unfold Cert.ReferenceIdeal.Hand.result Cert.KernelIdeal.Hand.result
  rw [ReshapePointwise.mulf_through_reshape, gathered_eq, binned_eq]

end Cert.Bridge

end
-- ==== Proof.lean ====
/-
  The certificate of the sparse field projection: response[r] = Σ over the nonzeros e with row e = r of
  vals e · field[col e], the 256×256 field read through its column-major flattening, the response re-laid as
  [1024, 128].

  The kernel program and the reference are the same host operations around ONE product: the reference multiplies
  the 30,000,000 values by the looked-up field entries directly; the kernel program re-lays both as [234375, 128]
  and multiplies them in a kernel that streams 29 blocks of 8192 rows, the last one overhanging the arrays by 3193
  rows.  The frames say each program runs to the end without a fault and leaves its arguments as launched
  (FrameBits, FrameIdeal: the kernel's body at every grid point, stated on the rows its transfers move; RefRun: the
  reference's straight line).  The kernel's result array is the product of its operand arrays (KernelValue: every
  written block is a block of that product, and the blocks cover the array), the operands and the tail are read back
  as functions of the arguments (KernelHost), and a product taken through a re-laying is the product (Bridge).  The
  ideal pass rewrote nothing, so the idealized kernel program is the kernel program's own text at the ideal instance.
-/
import proofs.«104967_j86792699117905_2_alg».proof.Defs
import proofs.«104967_j86792699117905_2_alg».proof.Proof.Gen.Kernel
import proofs.«104967_j86792699117905_2_alg».proof.Proof.Gen.Kernel.Skeleton
import proofs.«104967_j86792699117905_2_alg».proof.Proof.Gen.Kernel.Launch
import proofs.«104967_j86792699117905_2_alg».proof.Proof.Gen.Kernel.Points
import proofs.«104967_j86792699117905_2_alg».proof.Proof.Gen.Kernel.Frame
import proofs.«104967_j86792699117905_2_alg».proof.Proof.Gen.KernelIdeal
import proofs.«104967_j86792699117905_2_alg».proof.Proof.Gen.KernelIdeal.Skeleton
import proofs.«104967_j86792699117905_2_alg».proof.Proof.Gen.KernelIdeal.Launch
import proofs.«104967_j86792699117905_2_alg».proof.Proof.Gen.KernelIdeal.Points
import proofs.«104967_j86792699117905_2_alg».proof.Proof.Gen.KernelIdeal.Frame
import proofs.«104967_j86792699117905_2_alg».proof.Proof.Gen.ReferenceIdeal
import proofs.«104967_j86792699117905_2_alg».proof.Proof.Gen.Pre_finite_inputs
import proofs.«104967_j86792699117905_2_alg».proof.Proof.FrameBits
import proofs.«104967_j86792699117905_2_alg».proof.Proof.FrameIdeal
import proofs.«104967_j86792699117905_2_alg».proof.Proof.KernelHost
import proofs.«104967_j86792699117905_2_alg».proof.Proof.RefRun
import proofs.«104967_j86792699117905_2_alg».proof.Proof.Bridge
import Idealize.ShloMosaic.Adequacy
import Idealize.ShloMosaic.Init

noncomputable section

namespace Cert.Proof

open Idealize.ShloMosaic Idealize.SL.Sem

/-- The word-level kernel program runs to the end without a fault and leaves its arguments as launched. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the arguments both idealized programs end with the same result: the kernel program's
    function of the arguments, which is the reference's. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
